-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S32000x512 : Shape := ⟨2, ![32000, 512]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel

variable [Facts]

def fn {F : FTy → Type} [FloatOps F] (main_arg0 : IVec S4x1024 32) (main_arg1 : FVec F S32000x512 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  main_v3
-- ==== Kernel.lean ====
abbrev S4x1024 : Shape := ⟨2, ![4, 1024]⟩
abbrev S32000x512 : Shape := ⟨2, ![32000, 512]⟩
abbrev S4096x1 : Shape := ⟨2, ![4096, 1]⟩
abbrev S4096x512 : Shape := ⟨2, ![4096, 512]⟩
abbrev S1024x1 : Shape := ⟨2, ![1024, 1]⟩
abbrev S1280x512 : Shape := ⟨2, ![1280, 512]⟩
abbrev S1024x512 : Shape := ⟨2, ![1024, 512]⟩
abbrev S1x1280 : Shape := ⟨2, ![1, 1280]⟩
abbrev S1024x1280 : Shape := ⟨2, ![1024, 1280]⟩
abbrev S4x1024x512 : Shape := ⟨3, ![4, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x1024, .i32⟩
  | .hbm, ⟨1, _⟩ => ⟨S32000x512, .f32⟩
  | .hbm, ⟨2, _⟩ => ⟨S4096x1, .i32⟩
  | .hbm, ⟨3, _⟩ => ⟨S4096x512, .f32⟩
  | .hbm, ⟨4, _⟩ => ⟨S4x1024x512, .f32⟩
  | .local _ .vmem, ⟨0, _⟩ => ⟨S1024x1, .i32⟩
  | .local _ .vmem, ⟨1, _⟩ => ⟨S1024x1, .i32⟩
  | .local _ .vmem, ⟨2, _⟩ => ⟨S1280x512, .f32⟩
  | .local _ .vmem, ⟨3, _⟩ => ⟨S1280x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x1024_S4096x1 : S4x1024.ShapeCasts S4096x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x1280_d1_w32 : S1x1280.Iotas .tc 32 [1]
  broadcasts_S1024x1_S1024x1280 : S1024x1.Broadcasts S1024x1280
  broadcasts_S1x1280_S1024x1280 : S1x1280.Broadcasts S1024x1280
  natLt_1_32 : 1 < 32
  bitsLt_bf16_f32 : FTy.bits .bf16 < FTy.bits .f32
  inb_S1280x512_S1280x512_0_0 : ∀ a, (![0, 0] : Fin 2 → Nat) a + S1280x512.size a ≤ S1280x512.size a
  h_S1280x512 : 0 < S1280x512.numel
  shapeCasts_S4096x512_S4x1024x512 : S4096x512.ShapeCasts S4x1024x512
  dot_S1024x1280_S1280x512_S1024x512_1_0_0_1_n_n_wf : DotDims.WF S1024x1280 S1280x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S32000x512.size a
  hwx0_1 : ∀ i : grid0.Coords, EltTy.bits .f32 = 32 ∨ (Rect.block (s := S32000x512) S1280x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)

variable [Facts₀]

def dot_S1024x1280_S1280x512_S1024x512_1_0_0_1_n_n : DotDims S1024x1280 S1280x512 S1024x512 where
  lhsContracting := [1]
  rhsContracting := [0]
  lhsNonContracting := [0]
  rhsNonContracting := [1]
  lhsBatch := []
  rhsBatch := []
  wf := dot_S1024x1280_S1280x512_S1024x512_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x1024 : Shape := ⟨2, ![4, 1024]⟩
abbrev S32000x512 : Shape := ⟨2, ![32000, 512]⟩
abbrev S4x1024x1 : Shape := ⟨3, ![4, 1024, 1]⟩
abbrev S1x1x32000 : Shape := ⟨3, ![1, 1, 32000]⟩
abbrev S4x1024x32000 : Shape := ⟨3, ![4, 1024, 32000]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S32000x512, .f32⟩
  | .hbm, ⟨2, _⟩ => ⟨S4x1024x1, .i32⟩
  | .hbm, ⟨3, _⟩ => ⟨S1x1x32000, .i32⟩
  | .hbm, ⟨4, _⟩ => ⟨S4x1024x32000, .i32⟩
  | .hbm, ⟨5, _⟩ => ⟨S4x1024x32000, .i32⟩
  | .hbm, ⟨6, _⟩ => ⟨S4x1024x32000, .i1⟩
  | .hbm, ⟨7, _⟩ => ⟨S4x1024x32000, .f32⟩
  | .hbm, ⟨8, _⟩ => ⟨S4x1024x512, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S1x1x32000_S4x1024x32000_0_1_2 : S1x1x32000.BroadcastsInDim S4x1024x32000 (![0, 1, 2] : Fin 3 → Fin S4x1024x32000.rank)
  dot_S4x1024x32000_S32000x512_S4x1024x512_2_0_01_1_n_n_wf : DotDims.WF S4x1024x32000 S32000x512 S4x1024x512 [2] [0] [0, 1] [1] [] []

variable [Facts₀]

def dot_S4x1024x32000_S32000x512_S4x1024x512_2_0_01_1_n_n : DotDims S4x1024x32000 S32000x512 S4x1024x512 where
  lhsContracting := [2]
  rhsContracting := [0]
  lhsNonContracting := [0, 1]
  rhsNonContracting := [1]
  lhsBatch := []
  rhsBatch := []
  wf := dot_S4x1024x32000_S32000x512_S4x1024x512_2_0_01_1_n_n_wf

class Facts : Prop extends Facts₀ where

variable [Facts]
-- ==== Proof.Spec.lean ====
/-
  The embedding lookup as one function of the argument arrays.

  For a token id `a` (a 32-bit word) and a vocabulary position `k`, `hot a k` is the one-hot weight:
  the extended real `1` when `a` is the word of `k`, else `0`. The lookup at batch `b`, position `s`
  and feature `d` is `∑ k < 32000, hot (x b s) k * w k d`: a sum in which at most one term is not a
  product with zero. Nothing is evaluated here; the two programs are compared term by term, and the
  only law used is that a finite sum over `0 … 31999` may be taken in 25 consecutive runs of 1280
  terms, each run added to the total of the runs before it (addition of extended reals is
  commutative and associative, infinities included, so no finiteness is needed).
-/
import Idealize.ShloMosaic.PureOps.Ideal
import Idealize.ShloMosaic.PureOps.Ideal.Laws
import Idealize.ShloMosaic.Lib.ValueIdx

noncomputable section

namespace Cert.Embed

open Idealize.ShloMosaic Idealize.ShloMosaic.ValueIdx

/-- The one-hot weight of the token id `a` at vocabulary position `k`. -/
def hot (a : BitVec 32) (k : ℕ) : EReal := (((IntOp.cmpi .eq a (BitVec.ofNat 32 k)).toNat : ℝ) : EReal)

/-- A one-bit word widened to 32 bits and read as a signed integer is the bit read as a natural number. -/
theorem bit_toInt : ∀ c : BitVec 1, (c.setWidth 32).toInt = (c.toNat : Int) := by decide

/-- An unsigned conversion of the comparison bit is the weight. -/
theorem hot_of_uitofp (a : BitVec 32) (k : ℕ) :
    FloatOps.uitofp (F := Ideal) .f32 (IntOp.cmpi .eq a (BitVec.ofNat 32 k)) = hot a k := rfl

/-- The comparison bit widened to 32 bits and converted as a signed integer is the weight too; the position
    `1280 * v + j` is compared as the word of `j` plus the word of `v` times 1280. -/
theorem hot_of_sitofp (a : BitVec 32) (v j : ℕ) :
    FloatOps.sitofp (F := Ideal) .f32
        ((IntOp.cmpi .eq a (IntOp.addi (BitVec.ofNat 32 j) (Scalar.muli (BitVec.ofNat 32 v) 1280#32))).setWidth 32)
      = hot a (1280 * v + j) := by
  have e : IntOp.addi (BitVec.ofNat 32 j) (Scalar.muli (BitVec.ofNat 32 v) 1280#32) = BitVec.ofNat 32 (1280 * v + j) := by
    show BitVec.ofNat 32 j + BitVec.ofNat 32 v * BitVec.ofNat 32 1280 = _
    rw [← BitVec.ofNat_mul, ← BitVec.ofNat_add, Nat.mul_comm v 1280, Nat.add_comm]
  rw [e]
  show (((((IntOp.cmpi .eq a (BitVec.ofNat 32 (1280 * v + j))).setWidth 32).toInt : ℝ)) : EReal) = _
  rw [bit_toInt]
  rfl

variable (W : (⟨2, ![32000, 512]⟩ : Shape).Idx → EReal)

/-- Term `k` of the lookup of token id `a` at feature `q` (zero past the vocabulary, so that it is a function on ℕ). -/
def term (a : BitVec 32) (q : Fin 512) (k : ℕ) : EReal :=
  if h : k < 32000 then hot a k * W (ix2 ⟨k, h⟩ q) else 0

theorem term_of_lt (a : BitVec 32) (q : Fin 512) (k : ℕ) (h : k < 32000) :
    term W a q k = hot a k * W (ix2 ⟨k, h⟩ q) := dif_pos h

/-- The sum of the first `n` terms. -/
def partialSum (a : BitVec 32) (q : Fin 512) (n : ℕ) : EReal := ∑ k ∈ Finset.range n, term W a q k

theorem partialSum_zero (a : BitVec 32) (q : Fin 512) : partialSum W a q 0 = 0 := Finset.sum_range_zero _

/-- One more run of 1280 terms. -/
theorem partialSum_add (a : BitVec 32) (q : Fin 512) (n : ℕ) :
    partialSum W a q (n + 1280) = partialSum W a q n + ∑ j : Fin 1280, term W a q (n + j.val) := by
  unfold partialSum
  rw [Finset.sum_range_add, Finset.sum_range (fun x => term W a q (n + x))]

/-- All 32000 terms: the sum over the vocabulary. -/
theorem partialSum_full (a : BitVec 32) (q : Fin 512) :
    partialSum W a q 32000 = ∑ k : Fin 32000, hot a k.val * W (ix2 k q) := by
  unfold partialSum
  rw [Finset.sum_range]
  exact Finset.sum_congr rfl fun k _ => term_of_lt W a q k.val k.isLt

/-- THE LOOKUP: at batch `i 0`, position `i 1`, feature `i 2`, the sum over the vocabulary of the one-hot weight of
    the token id there times the table's entry. -/
def lookup (X : (⟨2, ![4, 1024]⟩ : Shape).Idx → BitVec 32) : (⟨3, ![4, 1024, 512]⟩ : Shape).Idx → EReal :=
  fun i => ∑ k : Fin 32000, hot (X (ix2 (i 0) (i 1))) k.val * W (ix2 k (i 2))

end Cert.Embed

end
-- ==== Proof.RefValue.lean ====
/-
  The reference computes the lookup: its `dot_general` of the one-hot array (the comparison of the token ids,
  broadcast along the vocabulary axis, with the vocabulary's iota, converted to a float) with the table is, at batch
  `b`, position `s`, feature `d`, the sum over `k` of the weight of `x b s` at `k` times `w k d`.
-/
import proofs.«124216_j19335942767147_1_alg».proof.Proof.Gen.ReferenceIdeal.Read
import proofs.«124216_j19335942767147_1_alg».proof.Proof.Spec

noncomputable section

namespace Cert.Embed.Ref

open Idealize.ShloMosaic Idealize.ShloMosaic.ValueIdx Cert.ReferenceIdeal Cert.ReferenceIdeal.Read

/-- The reference's result, as a function of its two arguments, is the lookup. -/
theorem val_eq_lookup (x0 : (⟨S4x1024, .i32⟩ : BufTy).Contents (Elt Ideal)) (x1 : (⟨S32000x512, .f32⟩ : BufTy).Contents (Elt Ideal)) :
    val_main_v1 (F := Ideal) x0 x1 = Cert.Embed.lookup x1 x0 := by
  funext i
  rw [val_main_v1_apply]
  refine Finset.sum_congr rfl fun k _ => ?_
  rw [val_main_v0_apply, val_main_call0_v4_apply, val_main_call0_v2_apply, val_main_call0_v0_apply,
    val_main_call0_v3_apply, val_main_call0_v1_apply]
  have e1 : idx_main_call0_v0 (idx_main_call0_v2 (lidx_main_v1 i k)) = ix2 (i 0) (i 1) :=
    funext fun a => Fin.ext (by match a with | ⟨0, _⟩ => rfl | ⟨1, _⟩ => rfl)
  have e2 : ridx_main_v1 i k = ix2 k (i 2) :=
    funext fun a => Fin.ext (by match a with | ⟨0, _⟩ => rfl | ⟨1, _⟩ => rfl)
  rw [e1, e2]
  rfl

end Cert.Embed.Ref

end
-- ==== Proof.Pieces.lean ====
/-
  What one run of the body leaves, as values, for any float instance.

  The body has three control cases over the vocabulary coordinate `vt` of the grid point. At `vt = 0` it first
  stores the zero block into the running totals and then stores the totals plus this run's product: the totals end at
  the body's arithmetic applied to the zero block. At `0 < vt < 24` it stores the arithmetic applied to the totals it
  found. At `vt = 24` it does the same and then copies the totals, read back, into the output block: both end at
  the arithmetic applied to the totals it found. Each store covers its whole buffer, so what the buffer holds is
  the last store's value, and a load of a whole buffer after such a store reads that value.
-/
import proofs.«124216_j19335942767147_1_alg».proof.Proof.Gen.KernelIdeal.Frame
import Idealize.ShloMosaic.Lib.Pipeline.Value
import Idealize.ShloMosaic.Lib.Tactic

set_option maxRecDepth 16384

noncomputable section

namespace Cert.Embed.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First vocabulary run: the totals end at the arithmetic over the zero block. -/
theorem totals_first (c : Dev nD) (i : grid0.Coords) (arg2 : Memref sig .tc .vmem S1024x1 .i32) (harg2 : arg2.IsWhole) (arg3 : Memref sig .tc .vmem S1280x512 .f32) (harg3 : arg3.IsWhole) (arg4 : Memref sig .tc .vmem S1024x512 .f32) (harg4 : arg4.IsWhole) (arg5 : Memref sig .tc .vmem S1024x512 .f32) (harg5 : arg5.IsWhole) (hc0 : cond0_0 i) (hc1 : ¬cond0_1 i)
    (x0 : Vec F S1024x1 .i32) (x1 : Vec F S1280x512 .f32) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1) hz, View.ld_unit_zero (S := S1280x512) hz, View.ld_unit_zero (S := S1024x512) hz]

/-- A middle vocabulary run: the totals end at the arithmetic over the totals found. -/
theorem totals_middle (c : Dev nD) (i : grid0.Coords) (arg2 : Memref sig .tc .vmem S1024x1 .i32) (harg2 : arg2.IsWhole) (arg3 : Memref sig .tc .vmem S1280x512 .f32) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : ¬cond0_1 i)
    (x0 : Vec F S1024x1 .i32) (x1 : Vec F S1280x512 .f32) (xs0 : Vec F S1024x512 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S1024x1) hz, View.ld_unit_zero (S := S1280x512) hz, View.ld_unit_zero (S := S1024x512) hz]

/-- The last vocabulary run: the totals end at the arithmetic over the totals found, -/
theorem totals_last (c : Dev nD) (i : grid0.Coords) (arg2 : Memref sig .tc .vmem S1024x1 .i32) (harg2 : arg2.IsWhole) (arg3 : Memref sig .tc .vmem S1280x512 .f32) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : cond0_1 i)
    (x0 : Vec F S1024x1 .i32) (x1 : Vec F S1280x512 .f32) (xs0 : Vec F S1024x512 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x1) hz, View.ld_unit_zero (S := S1280x512) hz, View.ld_unit_zero (S := S1024x512) hz]

/-- and the output block at the same value: the totals read back after that store. -/
theorem output_last (c : Dev nD) (i : grid0.Coords) (arg2 : Memref sig .tc .vmem S1024x1 .i32) (harg2 : arg2.IsWhole) (arg3 : Memref sig .tc .vmem S1280x512 .f32) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : cond0_1 i)
    (x0 : Vec F S1024x1 .i32) (x1 : Vec F S1280x512 .f32) (xs0 : Vec F S1024x512 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x512) _ hz]
  simp only [View.readAt_eq_ld, harg2.read_unread, harg3.read_unread, harg5.read_unread, View.ld_unit_zero (S := S1024x1) hz, View.ld_unit_zero (S := S1280x512) hz, View.ld_unit_zero (S := S1024x512) hz]

end Cert.Embed.Pieces

end
-- ==== Proof.Payload.lean ====
/-
  The body's arithmetic at an index, over the extended reals.

  At grid point `(mt, vt)` the body holds a column of 1024 token ids, a run of 1280 rows of the table (rows
  `1280 * vt …`) and the running totals. It compares each id with the positions `1280 * vt + j`, `j < 1280`, and
  adds to the total at row `p`, feature `q` the matrix product of the comparison block with the table's run:
  `∑ j < 1280, hot (id p) (1280 * vt + j) * run j q`. A change of float format is the identity here, and the
  product accumulates onto the zero block, so it is exactly that sum.
-/
import proofs.«124216_j19335942767147_1_alg».proof.Proof.Gen.KernelIdeal.Skeleton
import proofs.«124216_j19335942767147_1_alg».proof.Proof.Spec
import Idealize.ShloMosaic.Lib.Pipeline.Value
import Idealize.ShloMosaic.Lib.ValueIdx
import Idealize.ShloMosaic.PureOps.Ideal.Laws

noncomputable section

namespace Cert.Embed.Pay

open Idealize.ShloMosaic Idealize.ShloMosaic.ValueIdx Cert.KernelIdeal Cert.KernelIdeal.Gen

/-- A column broadcast along the lanes reads the column's row. -/
theorem bcast_col {α : Type} (v : S1024x1.Idx → α) (h : S1024x1.Broadcasts S1024x1280) (p : Fin 1024) (j : Fin 1280) :
    broadcastTo S1024x1280 v h (ix2 p j) = v (ix2 p 0) :=
  broadcastTo_apply v h (ix2 p j) (ix2 p 0) (fun a => match a with
    | ⟨0, _⟩ => by show p.val = if (1024 : ℕ) = 1 then 0 else p.val; rw [if_neg (by decide)]
    | ⟨1, _⟩ => by show 0 = if (1 : ℕ) = 1 then 0 else j.val; rw [if_pos rfl])

/-- A row broadcast down the rows reads the row's lane. -/
theorem bcast_row {α : Type} (v : S1x1280.Idx → α) (h : S1x1280.Broadcasts S1024x1280) (p : Fin 1024) (j : Fin 1280) :
    broadcastTo S1024x1280 v h (ix2 p j) = v (ix2 0 j) :=
  broadcastTo_apply v h (ix2 p j) (ix2 0 j) (fun a => match a with
    | ⟨0, _⟩ => by show 0 = if (1 : ℕ) = 1 then 0 else p.val; rw [if_pos rfl]
    | ⟨1, _⟩ => by show j.val = if (1280 : ℕ) = 1 then 0 else j.val; rw [if_neg (by decide)])

/-- The zero block the first vocabulary run starts from. -/
theorem pay1_apply (y : S1024x512.Idx) : k0_pay1 (F := Ideal) y = 0 := by
  unfold k0_pay1
  simp only [shapeCast_self]
  show Ideal.ofBits .f32 0x00000000#32 = 0
  exact Ideal.ofBits_zero_f32

/-- The matrix product's operand indices: at output `(p, q)` and contraction coordinate `k` the left operand is read
    at `(p, k)` and the right at `(k, q)`. -/
theorem lhs_0 (y : S1024x512.Idx) (k : dot_S1024x1280_S1280x512_S1024x512_1_0_0_1_n_n.contr.Idx) :
    (dot_S1024x1280_S1280x512_S1024x512_1_0_0_1_n_n.lhsIdx y k 0).val = (y 0).val := by
  unfold DotDims.lhsIdx
  rw [dif_neg (show ¬(0 : Fin S1024x1280.rank) ∈ dot_S1024x1280_S1280x512_S1024x512_1_0_0_1_n_n.lhsBatch by decide),
    dif_pos (show (0 : Fin S1024x1280.rank) ∈ dot_S1024x1280_S1280x512_S1024x512_1_0_0_1_n_n.lhsNonContracting by decide)]
  rfl
theorem lhs_1 (y : S1024x512.Idx) (k : dot_S1024x1280_S1280x512_S1024x512_1_0_0_1_n_n.contr.Idx) :
    (dot_S1024x1280_S1280x512_S1024x512_1_0_0_1_n_n.lhsIdx y k 1).val = (k ⟨0, by decide⟩).val :=
  dot_S1024x1280_S1280x512_S1024x512_1_0_0_1_n_n.lhsIdx_val_of_single rfl y k
theorem rhs_0 (y : S1024x512.Idx) (k : dot_S1024x1280_S1280x512_S1024x512_1_0_0_1_n_n.contr.Idx) :
    (dot_S1024x1280_S1280x512_S1024x512_1_0_0_1_n_n.rhsIdx y k 0).val = (k ⟨0, by decide⟩).val :=
  dot_S1024x1280_S1280x512_S1024x512_1_0_0_1_n_n.rhsIdx_val_of_single rfl y k
theorem rhs_1 (y : S1024x512.Idx) (k : dot_S1024x1280_S1280x512_S1024x512_1_0_0_1_n_n.contr.Idx) :
    (dot_S1024x1280_S1280x512_S1024x512_1_0_0_1_n_n.rhsIdx y k 1).val = (y 1).val := by
  unfold DotDims.rhsIdx
  rw [dif_neg (show ¬(1 : Fin S1280x512.rank) ∈ dot_S1024x1280_S1280x512_S1024x512_1_0_0_1_n_n.rhsBatch by decide),
    dif_pos (show (1 : Fin S1280x512.rank) ∈ dot_S1024x1280_S1280x512_S1024x512_1_0_0_1_n_n.rhsNonContracting by decide)]
  rfl

/-- THE BODY'S STORE at row `p`, feature `q`: the total it found there plus this run's 1280 terms. -/
theorem pay2_apply (i : grid0.Coords) (x0 : Vec Ideal S1024x1 .i32) (x1 : Vec Ideal S1280x512 .f32)
    (xs : Vec Ideal S1024x512 .f32) (p : Fin 1024) (q : Fin 512) :
    k0_pay2 i x0 x1 xs (ix2 p q)
      = xs (ix2 p q) + ∑ j : Fin 1280, Cert.Embed.hot (x0 (ix2 p 0)) (1280 * (i 1).val + j.val) * x1 (ix2 j q) := by
  unfold k0_pay2
  simp only [shapeCast_self]
  rw [addf_apply]
  congr 1
  simp only [matmul]
  rw [Ideal.matmul_constant_zero_apply,
    ← Equiv.sum_comp (contrEquiv1 dot_S1024x1280_S1280x512_S1024x512_1_0_0_1_n_n 1280 rfl rfl).symm]
  refine Finset.sum_congr rfl fun j _ => ?_
  have hk := contrEquiv1_symm_val dot_S1024x1280_S1280x512_S1024x512_1_0_0_1_n_n 1280 rfl rfl j
  have el : dot_S1024x1280_S1280x512_S1024x512_1_0_0_1_n_n.lhsIdx (ix2 p q)
      ((contrEquiv1 dot_S1024x1280_S1280x512_S1024x512_1_0_0_1_n_n 1280 rfl rfl).symm j) = ix2 p j :=
    funext fun a => Fin.ext (by
      match a with
      | ⟨0, _⟩ => exact lhs_0 _ _
      | ⟨1, _⟩ => exact (lhs_1 _ _).trans hk)
  have er : dot_S1024x1280_S1280x512_S1024x512_1_0_0_1_n_n.rhsIdx (ix2 p q)
      ((contrEquiv1 dot_S1024x1280_S1280x512_S1024x512_1_0_0_1_n_n 1280 rfl rfl).symm j) = ix2 j q :=
    funext fun a => Fin.ext (by
      match a with
      | ⟨0, _⟩ => exact (rhs_0 _ _).trans hk
      | ⟨1, _⟩ => exact rhs_1 _ _)
  rw [el, er, truncf_apply, truncf_apply, sitofp_apply, extui_apply]
  show FloatOps.sitofp (F := Ideal) .f32 ((IntOp.cmpi .eq (broadcastTo S1024x1280 x0 _ (ix2 p j)) (broadcastTo S1024x1280 _ _ (ix2 p j))).setWidth 32) * _ = _
  rw [bcast_col, bcast_row]
  show FloatOps.sitofp (F := Ideal) .f32 ((IntOp.cmpi .eq (x0 (ix2 p 0))
    (IntOp.addi (iota .tc S1x1280 32 [1] iota_S1x1280_d1_w32 (ix2 0 j)) (Scalar.muli (BitVec.ofNat 32 (i 1).val) 1280#32))).setWidth 32) * _ = _
  rw [iota_single_apply]
  exact congrArg (· * x1 (ix2 j q)) (Cert.Embed.hot_of_sitofp (x0 (ix2 p 0)) (i 1).val j.val)

/-- ONE STEP OF THE ACCUMULATION. If the grid point's vocabulary coordinate is `b`, the id at row `p` is `a`, the
    table's run holds rows `1280 * b + j` of `W` at feature `q`, and the totals found at `(p, q)` are the first
    `1280 * b` terms of the lookup, then the body's store there is the first `1280 * (b + 1)` terms. -/
theorem step (W : (⟨2, ![32000, 512]⟩ : Shape).Idx → EReal) (i : grid0.Coords) (x0 : Vec Ideal S1024x1 .i32)
    (x1 : Vec Ideal S1280x512 .f32) (xs : Vec Ideal S1024x512 .f32) (a : BitVec 32) (p : Fin 1024) (q : Fin 512)
    (b : ℕ) (hb : b < 25) (hi : (i 1).val = b) (hx0 : x0 (ix2 p 0) = a)
    (hx1 : ∀ j : Fin 1280, x1 (ix2 j q) = W (ix2 ⟨1280 * b + j.val, by have := j.isLt; omega⟩ q))
    (hxs : xs (ix2 p q) = Cert.Embed.partialSum W a q (1280 * b)) :
    k0_pay2 i x0 x1 xs (ix2 p q) = Cert.Embed.partialSum W a q (1280 * (b + 1)) := by
  rw [pay2_apply, hxs, hx0, hi, show 1280 * (b + 1) = 1280 * b + 1280 from by omega, Cert.Embed.partialSum_add]
  congr 1
  refine Finset.sum_congr rfl fun j _ => ?_
  rw [Cert.Embed.term_of_lt W a q (1280 * b + j.val) (by have := j.isLt; omega), hx1 j]

end Cert.Embed.Pay

end
-- ==== Proof.Totals.lean ====
/-
  The running totals, point by point.

  The grid's points are numbered `n = 25 * mt + vt`: token tile `mt < 4` (rows `1024 * mt …` of the flattened ids),
  vocabulary run `vt < 25`. The ids' block at point `n` is rows `1024 * (n / 25) + p`, the table's block rows
  `1280 * (n % 25) + j`. After point `n` the running totals hold, at row `p` and feature `q`, the first
  `1280 * (n % 25 + 1)` terms of the lookup of the id at row `1024 * (n / 25) + p`: the first run of a tile starts
  from the zero block, every later run adds its 1280 terms to what the point before left. At the last run of a tile
  the output block is the totals: all 32000 terms.
-/
import proofs.«124216_j19335942767147_1_alg».proof.Proof.Pieces
import proofs.«124216_j19335942767147_1_alg».proof.Proof.Payload
import Idealize.ShloMosaic.Lib.Pipeline.Value

set_option maxRecDepth 16384

noncomputable section

namespace Cert.Embed.Totals

open Idealize.ShloMosaic Idealize.ShloMosaic.TcCoe Idealize.SL.Sem Idealize.ShloMosaic.ValueIdx
open Cert.KernelIdeal Cert.KernelIdeal.Gen Cert.Embed

variable (m : (ℓ : Loc nD τ sig) → Buf (Elt Ideal) ℓ)

theorem N100 : cfg0.N = 100 := N_0

/-- The printed index maps and the vocabulary coordinate, decided once over the grid's 100 points. -/
theorem idx_facts : ∀ t : Fin cfg0.N, win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ ((grid0.coords t) 1).val = t.val % 25 :=
  (by decide +kernel : ∀ t : Fin grid0.N, _)

/-- The flattened token ids and the table, as the region finds them. -/
abbrev ids (c : Dev nD) : S4096x1.Idx → BitVec 32 := V m c main_v0
abbrev tbl (c : Dev nD) : S32000x512.Idx → EReal := V m c main_arg1

/-- The row of the flattened ids that row `p` of point `n`'s block is. -/
def row (n : ℕ) (hn : n < cfg0.N) (p : Fin 1024) : Fin 4096 :=
  ⟨1024 * (n / 25) + p.val, by have := N100; have := p.isLt; omega⟩

/-- The ids' block at point `t`, row `p`. -/
theorem ids_blk (c : Dev nD) (t : Fin cfg0.N) (p : Fin 1024) :
    (iblk m c 0 t : Vec Ideal S1024x1 .i32) (ix2 p 0) = ids m c (ix2 (row t.val t.isLt p) 0) := by
  obtain ⟨e0, e1, -⟩ := idx_facts t
  unfold iblk
  rw [View.read_apply]
  show V m c main_v0 _ = V m c main_v0 _
  congr 1
  funext a; apply Fin.ext
  match a with
  | ⟨0, _⟩ => show win0_0.index t (0 : Fin 2) * 1024 + 1 * p.val = 1024 * (t.val / 25) + p.val; rw [e0]; omega
  | ⟨1, _⟩ => show win0_0.index t (1 : Fin 2) * 1 + 1 * 0 = 0; rw [e1]

/-- The table's block at point `t`, row `j`, feature `q`. -/
theorem tbl_blk (c : Dev nD) (t : Fin cfg0.N) (j : Fin 1280) (q : Fin 512) :
    (iblk m c 1 t : Vec Ideal S1280x512 .f32) (ix2 j q)
      = tbl m c (ix2 ⟨1280 * (t.val % 25) + j.val, by have := j.isLt; omega⟩ q) := by
  obtain ⟨-, -, e2, e3, -⟩ := idx_facts t
  unfold iblk
  rw [View.read_apply]
  show V m c main_arg1 _ = V m c main_arg1 _
  congr 1
  funext a; apply Fin.ext
  match a with
  | ⟨0, _⟩ => show win0_1.index t (0 : Fin 2) * 1280 + 1 * j.val = 1280 * (t.val % 25) + j.val; rw [e2]; omega
  | ⟨1, _⟩ => show win0_1.index t (1 : Fin 2) * 512 + 1 * q.val = q.val; rw [e3]; omega

/-- ONE POINT: over totals holding the first `1280 * (t % 25)` terms, the body's store holds the first
    `1280 * (t % 25 + 1)`. -/
theorem point (c : Dev nD) (t : Fin cfg0.N) (xs : Vec Ideal S1024x512 .f32) (p : Fin 1024) (q : Fin 512)
    (hxs : xs (ix2 p q) = partialSum (tbl m c) (ids m c (ix2 (row t.val t.isLt p) 0)) q (1280 * (t.val % 25))) :
    k0_pay2 (grid0.coords t) (iblk m c 0 t) (iblk m c 1 t) xs (ix2 p q)
      = partialSum (tbl m c) (ids m c (ix2 (row t.val t.isLt p) 0)) q (1280 * (t.val % 25 + 1)) :=
  Pay.step (tbl m c) (grid0.coords t) (iblk m c 0 t) (iblk m c 1 t) xs (ids m c (ix2 (row t.val t.isLt p) 0)) p q
    (t.val % 25) (Nat.mod_lt _ (by decide)) (idx_facts t).2.2.2.2.2.2 (ids_blk m c t p) (fun j => tbl_blk m c t j q) hxs

/-- The first run of a tile: from the zero block. -/
theorem point_first (c : Dev nD) (t : Fin cfg0.N) (h0 : t.val % 25 = 0) (p : Fin 1024) (q : Fin 512) :
    k0_pay2 (grid0.coords t) (iblk m c 0 t) (iblk m c 1 t) (k0_pay1 (F := Ideal)) (ix2 p q)
      = partialSum (tbl m c) (ids m c (ix2 (row t.val t.isLt p) 0)) q (1280 * (t.val % 25 + 1)) :=
  point m c t (k0_pay1 (F := Ideal)) p q (by rw [Pay.pay1_apply, h0, Nat.mul_zero, partialSum_zero])

/-- What the three control cases leave at a point, over the blocks the point reads (and, past a tile's first run,
    over the totals the point before left). -/
theorem case_first (c : Dev nD) (t : Fin cfg0.N) (h0 : t.val % 25 = 0) (h1 : ¬t.val % 25 = 24) :
    (outsAt0 m c t.val t.isLt).2 = k0_pay2 (grid0.coords t) (iblk m c 0 t) (iblk m c 1 t) (k0_pay1 (F := Ideal)) := by
  rw [outsAt0_A m c t h0 h1]
  dsimp only
  exact Pieces.totals_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem case_middle (c : Dev nD) (t : Fin cfg0.N) (h0 : ¬t.val % 25 = 0) (h1 : ¬t.val % 25 = 24) :
    (outsAt0 m c t.val t.isLt).2 = k0_pay2 (grid0.coords t) (iblk m c 0 t) (iblk m c 1 t)
      (outsAt0 m c (t.val - 1) (Nat.lt_of_le_of_lt (Nat.sub_le _ _) t.isLt)).2 := by
  rw [outsAt0_B m c t h0 h1]
  dsimp only
  exact Pieces.totals_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem case_last (c : Dev nD) (t : Fin cfg0.N) (h0 : ¬t.val % 25 = 0) (h1 : t.val % 25 = 24) :
    (outsAt0 m c t.val t.isLt).2 = k0_pay2 (grid0.coords t) (iblk m c 0 t) (iblk m c 1 t)
      (outsAt0 m c (t.val - 1) (Nat.lt_of_le_of_lt (Nat.sub_le _ _) t.isLt)).2 := by
  rw [outsAt0_C m c t h0 h1]
  dsimp only
  exact Pieces.totals_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

theorem case_last_output (c : Dev nD) (t : Fin cfg0.N) (h0 : ¬t.val % 25 = 0) (h1 : t.val % 25 = 24) :
    (outsAt0 m c t.val t.isLt).1 = k0_pay2 (grid0.coords t) (iblk m c 0 t) (iblk m c 1 t)
      (outsAt0 m c (t.val - 1) (Nat.lt_of_le_of_lt (Nat.sub_le _ _) t.isLt)).2 := by
  rw [outsAt0_C m c t h0 h1]
  dsimp only
  exact Pieces.output_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- THE RUNNING TOTALS after point `n`. -/
theorem totals_eq (c : Dev nD) : ∀ (n : ℕ) (hn : n < cfg0.N) (p : Fin 1024) (q : Fin 512),
    (outsAt0 m c n hn).2 (ix2 p q)
      = partialSum (tbl m c) (ids m c (ix2 (row n hn p) 0)) q (1280 * (n % 25 + 1))
  | 0, hn, p, q => by
    rw [case_first m c ⟨0, hn⟩ rfl (by show ¬0 % 25 = 24; decide)]
    exact point_first m c ⟨0, hn⟩ rfl p q
  | n + 1, hn, p, q => by
    have hN := N100
    by_cases h0 : (n + 1) % 25 = 0
    · have h1 : ¬(n + 1) % 25 = 24 := by omega
      rw [case_first m c ⟨n + 1, hn⟩ h0 h1]
      exact point_first m c ⟨n + 1, hn⟩ h0 p q
    · have ih := totals_eq c n (Nat.lt_of_succ_lt hn) p q
      have hrow : row n (Nat.lt_of_succ_lt hn) p = row (n + 1) hn p :=
        Fin.ext (by show 1024 * (n / 25) + p.val = 1024 * ((n + 1) / 25) + p.val; omega)
      have hcnt : 1280 * (n % 25 + 1) = 1280 * ((n + 1) % 25) := by omega
      rw [hrow, hcnt] at ih
      by_cases h1 : (n + 1) % 25 = 24
      · rw [case_last m c ⟨n + 1, hn⟩ h0 h1]
        exact point m c ⟨n + 1, hn⟩ (outsAt0 m c n (Nat.lt_of_succ_lt hn)).2 p q ih
      · rw [case_middle m c ⟨n + 1, hn⟩ h0 h1]
        exact point m c ⟨n + 1, hn⟩ (outsAt0 m c n (Nat.lt_of_succ_lt hn)).2 p q ih

/-- THE OUTPUT BLOCK at the last run of a tile: the whole sum over the vocabulary. -/
theorem output_eq (c : Dev nD) (t : Fin cfg0.N) (h1 : t.val % 25 = 24) (p : Fin 1024) (q : Fin 512) :
    (outsAt0 m c t.val t.isLt).1 (ix2 p q) = partialSum (tbl m c) (ids m c (ix2 (row t.val t.isLt p) 0)) q 32000 := by
  have hN := N100
  have h0 : ¬t.val % 25 = 0 := by omega
  have hlt : t.val - 1 < cfg0.N := Nat.lt_of_le_of_lt (Nat.sub_le _ _) t.isLt
  have ih := totals_eq m c (t.val - 1) hlt p q
  have hrow : row (t.val - 1) hlt p = row t.val t.isLt p :=
    Fin.ext (by show 1024 * ((t.val - 1) / 25) + p.val = 1024 * (t.val / 25) + p.val; omega)
  have hcnt : 1280 * ((t.val - 1) % 25 + 1) = 1280 * (t.val % 25) := by omega
  rw [hrow, hcnt] at ih
  rw [case_last_output m c t h0 h1, point m c t (outsAt0 m c (t.val - 1) hlt).2 p q ih,
    show 1280 * (t.val % 25 + 1) = 32000 from by omega]

end Cert.Embed.Totals

end
-- ==== Proof.Result.lean ====
/-
  From the blocks to the result.

  The output array has 4096 rows; its block at a point of token tile `mt` is rows `1024 * mt …`, written back only
  at the tile's last vocabulary run, where it holds the whole sum over the vocabulary. The four write-backs
  cover the array, so it ends holding, at row `r` and feature `d`, the lookup of the id at flattened row `r`. The
  program reshapes the ids from 4 × 1024 to 4096 × 1 before the kernel and the output from 4096 × 512 to
  4 × 1024 × 512 after it; both reshapes keep the row-major position, so row `1024 * b + s` is batch `b`,
  position `s`.
-/
import proofs.«124216_j19335942767147_1_alg».proof.Proof.Totals
import Idealize.ShloMosaic.Lib.Pipeline.Value
import Idealize.ShloMosaic.Lib.StableHlo.Run

set_option maxRecDepth 16384

noncomputable section

namespace Cert.Embed.Result

open Idealize.ShloMosaic Idealize.ShloMosaic.TcCoe Idealize.SL.Sem Idealize.ShloMosaic.ValueIdx
open Idealize.ShloMosaic.Pipeline (Dat)
open Cert.KernelIdeal Cert.KernelIdeal.Gen Cert.Embed Cert.Embed.Totals

variable (m : (ℓ : Loc nD τ sig) → Buf (Elt Ideal) ℓ) (ρ : Dev nD → PrngReg)

/-- The output array as one function of the ids and the table the region finds: all 32000 terms at each entry. -/
def arr (c : Dev nD) : Buf (Elt Ideal) ((c : Thread nD τ).loc main_v1) :=
  (fun y => partialSum (tbl m c) (ids m c (ix2 (y 0) 0)) (y 1) 32000 : S4096x512.Idx → EReal)

theorem arr_apply (c : Dev nD) (r : Fin 4096) (d : Fin 512) :
    arr m c (ix2 r d : S4096x512.Idx) = partialSum (tbl m c) (ids m c (ix2 r 0)) d 32000 := rfl

-- from here on the array's function is read only through `arr_apply`
attribute [irreducible] arr

/-- The output block at a tile's last run, entry by entry, is the array's function read through the block. -/
theorem blk_value (c : Dev nD) (t : Fin cfg0.N) (h1 : t.val % 25 = 24) (y : S1024x512.Idx) :
    (outsAt0 m c t.val t.isLt).1 y = arr m c (((cfg0.win 2).blk t).view.emb y) := by
  obtain ⟨-, -, -, -, e4, e5, -⟩ := idx_facts t
  obtain ⟨p, q, rfl⟩ : ∃ (p : Fin 1024) (q : Fin 512), y = ix2 p q := ⟨y 0, y 1, eq_ix2 y⟩
  rw [output_eq m c t h1 p q]
  have ea : ((cfg0.win 2).blk t).view.emb (ix2 p q) = (ix2 (row t.val t.isLt p) q : S4096x512.Idx) :=
    funext fun a => Fin.ext (by
      match a with
      | ⟨0, _⟩ => show win0_2.index t (0 : Fin 2) * 1024 + 1 * p.val = 1024 * (t.val / 25) + p.val; rw [e4]; omega
      | ⟨1, _⟩ => show win0_2.index t (1 : Fin 2) * 512 + 1 * q.val = q.val; rw [e5]; omega)
  rw [ea, arr_apply]

/-- What a flushing point writes back is its block of the array's function. -/
theorem flushed_eq (c : Dev nD) (t : Fin cfg0.N) (hf : (cfg0.win 2).flush t = true) :
    (dats m 0 c).flushed 2 t = ((cfg0.win 2).blk t).view.read (Elt Ideal) (arr m c) := by
  have h1 : t.val % 25 = 24 := (flush0_2 t).mp hf
  show (cfg0.win 2).cut (grid0.coords t) ((dats m 0 c).after 2 t) = _
  rw [after0_2]
  funext y
  rw [View.read_apply]
  exact blk_value m c t h1 y

/-- Row `r` of the array is in the block written back at point `25 * (r / 1024) + 24`. -/
theorem cover (c : Dev nD) (i : S4096x512.Idx) :
    ∃ t : Fin cfg0.N, (cfg0.win 2).flush t = true ∧ i ∈ ((cfg0.win 2).blk t).view.set := by
  have hN := N100
  have hi0 : (i 0).val < 4096 := (i 0).isLt
  have hi1 : (i 1).val < 512 := (i 1).isLt
  let t : Fin cfg0.N := ⟨25 * ((i 0).val / 1024) + 24, by omega⟩
  have ht : t.val = 25 * ((i 0).val / 1024) + 24 := rfl
  obtain ⟨-, -, -, -, e4, e5, -⟩ := idx_facts t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 512 ≤ (i 1).val ∧ (i 1).val < win0_2.index t (1 : Fin 2) * 512 + 512
    rw [e5]; omega

/-- THE OUTPUT ARRAY after the kernel. -/
theorem final (c : Dev nD) : (dats m 0 c).arrAt 2 cfg0.N = arr m c :=
  (dats m 0 c).arrAt_eq_of_cover 2 (arr m c) (flushed_eq m c) (cover c)

/-- The program's result: the reshape after the kernel, applied to that array. -/
theorem tail_eq (c : Dev nD) :
    Pipeline.afterTail₀ cfgs (dats m) 0 (V0 m) [hostOps1] c main_v2
      = shapeCast S4x1024x512 (arr m c) shapeCasts_S4096x512_S4x1024x512 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = arr m c :=
    (Pipeline.withArrays_arr spec0 launch0.win.arr_inj c _ _ 2).trans (final m c)
  rw [e]
  rfl

/-- The ids the region finds are the reshape of the program's first argument. -/
theorem ids_eq (c : Dev nD) :
    ids m c = shapeCast S4096x1 (m ((c : Thread nD τ).loc main_arg0)) shapeCasts_S4x1024_S4096x1 := by
  show StableHlo.after hostOps0 (fun b => m (c, b)) (Proc.devRef .tc main_v0) = _
  after_results
  rfl

/-- Flattened row `1024 * b + s` is batch `b`, position `s`. -/
theorem ids_apply (c : Dev nD) (b : Fin 4) (s : Fin 1024) :
    ids m c (ix2 ⟨1024 * b.val + s.val, by have := b.isLt; have := s.isLt; omega⟩ 0)
      = (m ((c : Thread nD τ).loc main_arg0) : S4x1024.Idx → BitVec 32) (ix2 b s) := by
  rw [ids_eq]
  exact shapeCast_apply _ _ _ (ix2 b s) (by
    show (S4x1024.rowMajor _).val = (S4096x1.rowMajor _).val
    rw [Shape.rowMajor_val_two, Shape.rowMajor_val_two]
    show b.val * 1024 + s.val = (1024 * b.val + s.val) * 1 + 0
    omega)

/-- THE RESULT is the lookup of the program's arguments. -/
theorem result_eq (c : Dev nD) :
    shapeCast S4x1024x512 (arr m c) shapeCasts_S4096x512_S4x1024x512
      = lookup (m ((c : Thread nD τ).loc main_arg1)) (m ((c : Thread nD τ).loc main_arg0)) := by
  funext i
  obtain ⟨b, s, d, rfl⟩ : ∃ (b : Fin 4) (s : Fin 1024) (d : Fin 512), i = ix3 b s d := ⟨i 0, i 1, i 2, eq_ix3 i⟩
  rw [shapeCast_apply (arr m c) shapeCasts_S4096x512_S4x1024x512 (ix3 b s d)
    (ix2 ⟨1024 * b.val + s.val, by have := b.isLt; have := s.isLt; omega⟩ d : S4096x512.Idx) (by
      show (S4096x512.rowMajor _).val = (S4x1024x512.rowMajor _).val
      rw [Shape.rowMajor_val_two, Shape.rowMajor_val_three]
      show (1024 * b.val + s.val) * 512 + d.val = (b.val * 1024 + s.val) * 512 + d.val
      omega)]
  rw [arr_apply, partialSum_full, ids_apply, show tbl m c = m ((c : Thread nD τ).loc main_arg1) from V_main_arg1 m c]
  rfl

/-- THE KERNEL'S RUN: it ends with its result at the reshape of the output array, and its arguments as launched. -/
theorem run : θ_run defs (onTc (τ := τ) (main (F := Ideal))) ⟨m, fun _ => 0, ρ⟩ fun r => ∀ c : Dev nD,
      r.2.mem ((c.tc : Thread nD τ).loc main_v2) = shapeCast S4x1024x512 (arr m c) shapeCasts_S4096x512_S4x1024x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.Embed.Result

end
-- ==== Proof.lean ====
/-
  An embedding lookup written as a one-hot matrix product, against its reference.

  Both programs compute, at batch `b`, position `s` and feature `d`,
      ∑ k < 32000, [x b s = k] · w k d
  over the extended reals, where `[x b s = k]` is `1` when the token id is the 32-bit word of `k` and `0` otherwise.
  The reference forms the whole 4 × 1024 × 32000 one-hot array (the ids compared with the vocabulary's iota, the bit
  converted unsigned) and contracts it with the table in one product. The kernel flattens the ids to 4096 rows,
  walks a 4 × 25 grid of (token tile, vocabulary run), and at each point compares a column of 1024 ids with the
  1280 positions of the run, multiplies the comparison block with the run's 1280 rows of the table, and adds the
  product into running totals that start from zero at a tile's first run; after the 25th run the totals are the
  tile's block of the output. A change of float format is the identity on the extended reals, the bit widened to
  32 bits and converted signed is the same `0` or `1` as the bit converted unsigned, and position
  `1280 * vt + j` is compared as the word of `j` plus the word of `vt` times 1280; so the kernel's terms are the
  reference's, taken 1280 at a time. The one law joining the two sides is that a sum over `0 … 31999` is the total
  of its 25 consecutive runs of 1280 terms accumulated in order, which needs only that addition of extended reals
  is commutative and associative: the precondition that the table is finite is never used.

  The modules: Spec (the one-hot weight, the partial sums, the lookup), RefValue (the reference is the lookup),
  Payload (the body's store at an index; one step of the accumulation), Pieces (what each control case of the body
  leaves), Totals (the running totals after each grid point, by recursion on the point), Result (the write-backs
  cover the output; the reshapes before and after; the kernel's run). The three frames are the generated ones;
  the idealization rewrote nothing, so `preserves` is trivial.
-/
import proofs.«124216_j19335942767147_1_alg».proof.Defs
import proofs.«124216_j19335942767147_1_alg».proof.Proof.Gen.Kernel
import proofs.«124216_j19335942767147_1_alg».proof.Proof.Gen.Kernel.Skeleton
import proofs.«124216_j19335942767147_1_alg».proof.Proof.Gen.Kernel.Launch
import proofs.«124216_j19335942767147_1_alg».proof.Proof.Gen.Kernel.Points
import proofs.«124216_j19335942767147_1_alg».proof.Proof.Gen.Kernel.Frame
import proofs.«124216_j19335942767147_1_alg».proof.Proof.Gen.KernelIdeal
import proofs.«124216_j19335942767147_1_alg».proof.Proof.Gen.KernelIdeal.Skeleton
import proofs.«124216_j19335942767147_1_alg».proof.Proof.Gen.KernelIdeal.Launch
import proofs.«124216_j19335942767147_1_alg».proof.Proof.Gen.KernelIdeal.Points
import proofs.«124216_j19335942767147_1_alg».proof.Proof.Gen.KernelIdeal.Frame
import proofs.«124216_j19335942767147_1_alg».proof.Proof.Gen.ReferenceIdeal
import proofs.«124216_j19335942767147_1_alg».proof.Proof.Gen.ReferenceIdeal.Run
import proofs.«124216_j19335942767147_1_alg».proof.Proof.Gen.ReferenceIdeal.Read
import proofs.«124216_j19335942767147_1_alg».proof.Proof.Gen.Pre_finite_inputs
import proofs.«124216_j19335942767147_1_alg».proof.Proof.RefValue
import proofs.«124216_j19335942767147_1_alg».proof.Proof.Result
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals, from memories agreeing on the ids and the table, both programs end at the lookup. -/
theorem algebraic : Cert.algebraic_KernelIdeal_ReferenceIdeal := by
  intro m ρ m' ρ' _ hagree
  refine ⟨fun c => Cert.Embed.lookup (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Embed.Result.result_eq m c), (h c).2⟩) (Cert.Embed.Result.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v1_eq, Cert.Embed.Ref.val_eq_lookup, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
